-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x4096 : Shape := ⟨3, ![16, 2048, 4096]⟩
abbrev S_ : Shape := ⟨0, ![]⟩

class Facts : Prop where
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel

variable [Facts]

def fn {F : FTy → Type} [FloatOps F] (main_arg0 : FVec F S16x2048x4096 .f32) : IVec S_ 1 :=
  let main_v0 : FVec F S16x2048x4096 .f32 := Host.absf main_arg0
  let main_cst : FVec F S_ .f32 := constant S_ .f32 0x7F800000#32
  let main_v1 : FVec F S16x2048x4096 .f32 := broadcastInDim S16x2048x4096 ![] bcast_S_S16x2048x4096 main_cst
  let main_v2 : IVec S16x2048x4096 1 := cmpf .olt main_v0 main_v1
  let main_c : IVec S_ 1 := constantI S_ 1 1#1
  let main_v3 : IVec S_ 1 := (fun x v => Host.reduce IntOp.andi x v reducesTo_S16x2048x4096_S_d0_1_2 h_S_) main_v2 main_c
  main_v3
-- ==== Kernel.lean ====
abbrev S16x2048x4096 : Shape := ⟨3, ![16, 2048, 4096]⟩
abbrev S32768x4096 : Shape := ⟨2, ![32768, 4096]⟩
abbrev S1x1 : Shape := ⟨2, ![1, 1]⟩
abbrev S512x4096 : Shape := ⟨2, ![512, 4096]⟩
abbrev S512 : Shape := ⟨1, ![512]⟩
abbrev S512x1 : Shape := ⟨2, ![512, 1]⟩
abbrev S1 : Shape := ⟨1, ![1]⟩
abbrev S_ : Shape := ⟨0, ![]⟩
abbrev S256x4096 : Shape := ⟨2, ![256, 4096]⟩

abbrev nBuf : Space → Nat
  | .hbm => 32
  | .vmem => 9
  | .smem => 0
  | _ => 0

abbrev bufTy : (tb : Table) → Fin (tcTables nBuf tb) → BufTy
  | .hbm, ⟨0, _⟩ => ⟨S16x2048x4096, .f32⟩
  | .hbm, ⟨1, _⟩ => ⟨S32768x4096, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | .hbm, ⟨30, _⟩ => ⟨S32768x4096, .f32⟩
  | .hbm, ⟨31, _⟩ => ⟨S16x2048x4096, .f32⟩
  | .local _ .vmem, ⟨0, _⟩ => ⟨S512x4096, .f32⟩
  | .local _ .vmem, ⟨1, _⟩ => ⟨S512x4096, .f32⟩
  | .local _ .vmem, ⟨2, _⟩ => ⟨S1x1, .f32⟩
  | .local _ .vmem, ⟨3, _⟩ => ⟨S256x4096, .f32⟩
  | .local _ .vmem, ⟨4, _⟩ => ⟨S256x4096, .f32⟩
  | .local _ .vmem, ⟨5, _⟩ => ⟨S1x1, .f32⟩
  | .local _ .vmem, ⟨6, _⟩ => ⟨S1x1, .f32⟩
  | .local _ .vmem, ⟨7, _⟩ => ⟨S256x4096, .f32⟩
  | .local _ .vmem, ⟨8, _⟩ => ⟨S256x4096, .f32⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_5 : BitVec 32 := 0#32
  let v16 : BitVec 1 := Scalar.cmpi .ne v15 c0_i32_5
  v16

def k0_cond2 (i : grid0.Coords) : BitVec 1 :=
  let arg0 : BitVec 32 := BitVec.ofNat 32 (i 0).val
  let c0_i32_6 : BitVec 32 := 0#32
  let v17 : BitVec 1 := Scalar.cmpi .ne arg0 c0_i32_6
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16x2048x4096_S32768x4096 : S16x2048x4096.ShapeCasts S32768x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  bcast_S_S_ : S_.BroadcastsInDim S_ (![] : Fin 0 → Fin S_.rank)
  shapeCasts_S_S1x1 : S_.ShapeCasts S1x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  broadcasts_S1x1_S256x4096 : S1x1.Broadcasts S256x4096
  shapeCasts_S32768x4096_S16x2048x4096 : S32768x4096.ShapeCasts S16x2048x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S32768x4096.size a
  hwx1_0 : ∀ i : grid1.Coords, EltTy.bits .f32 = 32 ∨ (Rect.block (s := S32768x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S32768x4096.size a
  hwx1_3 : ∀ i : grid1.Coords, EltTy.bits .f32 = 32 ∨ (Rect.block (s := S32768x4096) S256x4096.size (cc1_transform_3 i) (hinb1_3 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x4096 : Shape := ⟨3, ![16, 2048, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S_, .f32⟩
  | .hbm, ⟨2, _⟩ => ⟨S16x2048x4096, .f32⟩
  | .hbm, ⟨3, _⟩ => ⟨S16x2048x4096, .i1⟩
  | .hbm, ⟨4, _⟩ => ⟨S_, .f32⟩
  | .hbm, ⟨5, _⟩ => ⟨S16x2048x4096, .f32⟩
  | .hbm, ⟨6, _⟩ => ⟨S16x2048x4096, .f32⟩
  | .hbm, ⟨7, _⟩ => ⟨S_, .f32⟩
  | .hbm, ⟨8, _⟩ => ⟨S16x2048x4096, .f32⟩
  | .hbm, ⟨9, _⟩ => ⟨S16x2048x4096, .f32⟩
  | .hbm, ⟨10, _⟩ => ⟨S16x2048x4096, .f32⟩
  | .hbm, ⟨11, _⟩ => ⟨S16x2048x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x2048x4096, .f32⟩
  | .hbm, ⟨33, _⟩ => ⟨S16x2048x4096, .f32⟩
  | .hbm, ⟨34, _⟩ => ⟨S16x2048x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16x2048x4096, .f32⟩
  | .hbm, ⟨39, _⟩ => ⟨S16x2048x4096, .f32⟩
  | .hbm, ⟨40, _⟩ => ⟨S_, .f32⟩
  | .hbm, ⟨41, _⟩ => ⟨S16x2048x4096, .f32⟩
  | .hbm, ⟨42, _⟩ => ⟨S16x2048x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16x2048x4096, .f32⟩
  | .hbm, ⟨50, _⟩ => ⟨S16x2048x4096, .f32⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_cst_5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_cst_9 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v22 : Ref sig .tc := ⟨.hbm, 42, rfl⟩
abbrev main_cst_10 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel
  bcast_S_S_ : S_.BroadcastsInDim S_ (![] : Fin 0 → Fin S_.rank)

variable [Facts₀]

class Facts : Prop extends Facts₀ where

variable [Facts]
-- ==== Proof.K.Reg0.lean ====
/-
  The first kernel region (the running maximum) on its own, at a parameter `V`: the contents of the TensorCore's
  buffers when the region is entered. Each of the 64 grid points reads one block of 512 rows of the reshaped input.
  The 1×1 result's block index never moves, so its staging buffer is written back only after the last point and
  carries the running maximum from point to point: the first point stores the block's maximum, every later point the
  maximum of what the buffer held and the block's maximum. The two conditions the stores stand under are
  complementary (the point is the first, or it is not), so the result's buffer is stored at every point.
-/
import proofs.«137072_j45449343926973_2_alg».proof.Proof.Gen.Kernel.Launch
import proofs.«137072_j45449343926973_2_alg».proof.Proof.Gen.Kernel.Skeleton
import proofs.«137072_j45449343926973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, decided -/

/-- Over the 64 values of the one grid coordinate: the first condition holds exactly at 0, the second exactly away from it. -/
theorem cond_table : ∀ n : Fin 64,
    ((Scalar.cmpi .ne (Scalar.extui (Scalar.cmpi .eq (BitVec.ofNat 32 n.val) 0#32)) 0#32 = 1#1) ↔ n.val = 0) ∧
    ((Scalar.cmpi .ne (Scalar.extui (Scalar.cmpi .ne (BitVec.ofNat 32 n.val) 0#32)) 0#32 = 1#1) ↔ n.val ≠ 0) := by
  decide +kernel

theorem hcond1 (i : grid0.Coords) : k0_cond1 i = 1#1 ↔ (i 0).val = 0 := (cond_table (i 0)).1
theorem hcond2 (i : grid0.Coords) : k0_cond2 i = 1#1 ↔ (i 0).val ≠ 0 := (cond_table (i 0)).2

/-- The same at the grid's points. -/
theorem hcondT : ∀ t : Fin cfg0.N, ((grid0.coords t) 0).val = t.val :=
  (by decide +kernel : ∀ t : Fin grid0.N, ((grid0.coords t) 0).val = t.val)

/-- The result's window is idle at no setting of the coordinate: one of the two stores is always taken. -/
theorem hlive_idle (i : grid0.Coords) : idle0 1 i = false := by
  show (!(k0_cond1 i == 1#1) && !(k0_cond2 i == 1#1)) = false
  by_cases h : (i 0).val = 0
  · have h1 := (hcond1 i).mpr h
    rw [h1]; rfl
  · have h2 := (hcond2 i).mpr h
    rw [h2]; simp

theorem hlive0_1 (i : grid0.Coords) : cfg0.idle 1 i = false := hlive_idle i

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result's staging buffer, case by case -/

abbrev rb : Rect S512x4096 := Rect.unit (s := S512x4096) ![0, 0] S512x4096.size inb_S512x4096_S512x4096_0_0
abbrev ro : Rect S1x1 := Rect.unit (s := S1x1) ![0, 0] S1x1.size inb_S1x1_S1x1_0_0

/-- At the first point: the block's maximum. -/
def outA (x0 : Vec F S512x4096 .f32) : Vec F S1x1 .f32 :=
  View.canon [⟨ro, k0_pay1 (View.ld x0 rb)⟩]

/-- At a later point: the maximum of what the buffer held and the block's maximum. -/
def outB (x0 : Vec F S512x4096 .f32) (xo : Vec F S1x1 .f32) : Vec F S1x1 .f32 :=
  View.canon [⟨ro, k0_pay2 (View.ld x0 rb) (View.ld xo ro)⟩]

/-- Either store is of the whole 1×1 block. -/
theorem coverO (p0 : Vec F S1x1 .f32) (y : S1x1.Idx) :
    ∃ pc ∈ ([⟨ro, p0⟩] : List (View.Piece (Elt F) S1x1 .f32)), y ∈ pc.1.set :=
  View.cover_of_tiled [⟨ro, p0⟩] S1x1.size (by rfl) y

set_option maxHeartbeats 1000000 in
/-- The body where the first condition holds and the second fails: the input's buffer at `x0`, the result's at anything. -/
theorem sound_kernel0_A (c : Dev nD) (E : Set ℕ) (i : grid0.Coords)
    (arg1 : Memref sig .tc .vmem S512x4096 .f32) (harg1 : arg1.IsWhole) (arg2 : Memref sig .tc .vmem S1x1 .f32) (harg2 : arg2.IsWhole)
    (hc1 : k0_cond1 i = 1#1) (hc2 : ¬ k0_cond2 i = 1#1)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outA x0)) -∗ K ⟨⟩))
      ⊢ wp frame (wpE (defs₀ (F := F)) Variants.none c none) E (cc0__reduce_max_kernel i arg1 harg1 arg2 harg2) K := by
  simp only [cc0__reduce_max_kernel_eq_skeleton]; unfold cc0__reduce_max_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverO _)

set_option maxHeartbeats 1000000 in
/-- The body where the first condition fails and the second holds: the input's buffer at `x0`, the result's at `xo`. -/
theorem sound_kernel0_B (c : Dev nD) (E : Set ℕ) (i : grid0.Coords)
    (arg1 : Memref sig .tc .vmem S512x4096 .f32) (harg1 : arg1.IsWhole) (arg2 : Memref sig .tc .vmem S1x1 .f32) (harg2 : arg2.IsWhole)
    (hc1 : ¬ k0_cond1 i = 1#1) (hc2 : k0_cond2 i = 1#1)
    (x0 : Vec F S512x4096 .f32) (xo : Vec F S1x1 .f32) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (outB x0 xo)) -∗ K ⟨⟩))
      ⊢ wp frame (wpE (defs₀ (F := F)) Variants.none c none) E (cc0__reduce_max_kernel i arg1 harg1 arg2 harg2) K := by
  simp only [cc0__reduce_max_kernel_eq_skeleton]; unfold cc0__reduce_max_kernel_skel
  unfold owns
  iintro ⟨⟨%f0, %hf0, H0⟩, ⟨%f1, %hf1, H1⟩, Hk⟩
  subst hf0; subst hf1
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverO _)

/-! ## The running maximum, point by point -/

/-- What the result's staging buffer holds after the body at position `n`: the block's maximum at the first point, then the
    maximum of what the point before left and the block's. -/
def acc0 (c : Dev nD) : (n : ℕ) → n < cfg0.N → Vec F S1x1 .f32
  | 0, hn => outA (iblk0 V c 0 ⟨0, hn⟩)
  | n + 1, hn => outB (iblk0 V c 0 ⟨n + 1, hn⟩) (acc0 c n (Nat.lt_of_succ_lt hn))

theorem acc0_zero (c : Dev nD) (t : Fin cfg0.N) (h0 : t.val = 0) : acc0 V c t.val t.isLt = outA (iblk0 V c 0 t) := by
  obtain ⟨n, hn⟩ := t
  cases n with
  | zero => rfl
  | succ n => exact absurd h0 (Nat.succ_ne_zero n)

theorem acc0_succ (c : Dev nD) (t : Fin cfg0.N) (h0 : t.val ≠ 0) :
    acc0 V c t.val t.isLt = outB (iblk0 V c 0 t) (acc0 V c (t.val - 1) (Nat.lt_of_le_of_lt (Nat.sub_le _ _) t.isLt)) := by
  obtain ⟨n, hn⟩ := t
  cases n with
  | zero => exact absurd rfl h0
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first point the result's staging buffer holds what the body left at the point before: the buffer is not
    written back between two points (only after the last), the window is never idle and its block is never clipped. -/
theorem before0_1_B (c : Dev nD) (t : Fin cfg0.N) (h0 : t.val ≠ 0) (d) :
    (dat0 V c).before 1 t d = acc0 V c (t.val - 1) (Nat.lt_of_le_of_lt (Nat.sub_le _ _) t.isLt) := by
  have hN : t.val < 64 := lt_of_lt_of_eq t.isLt (show cfg0.N = 64 from N_0)
  rw [Dat.before_out_kept _ 1 rfl t h0 (Bool.eq_false_iff.mpr fun h => by have := (flush0_1 _).mp h; dsimp only at this; omega)
    hlive0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds its block; the point is the first or it is not; after the first
    the result's memref holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · have hi : ((grid0.coords t) 0).val = 0 := (hcondT t).trans h0
    rw [acc0_zero V c t h0]
    iintro ⟨HΦ, Ho, ⟨%d0, H0⟩, ⟨%d1, H1⟩⟩
    iapply (sound_kernel0_A c Set.univ (grid0.coords t) _ _ _ _ ((hcond1 _).mpr hi) (fun h => (hcond2 _).mp h hi) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · have hi : ((grid0.coords t) 0).val ≠ 0 := fun h => h0 ((hcondT t).symm.trans h)
    rw [acc0_succ V c t h0]
    simp only [before0_1_B V c t h0]
    iintro ⟨HΦ, Ho, ⟨%d0, H0⟩, ⟨%d1, H1⟩⟩
    iapply (sound_kernel0_B c Set.univ (grid0.coords t) _ _ _ _ (fun h => hi ((hcond1 _).mp h)) ((hcond2 _).mpr hi) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point: the result's window is live everywhere, so what the body must
    leave is the stated contents at every point. -/
theorem body_obligation0 (c : Dev nD) : BodyObligation (dat0 (F := F) V c) (defs₀ (F := F)) Variants.none () Set.univ := fun t => by
  rw [bigSep_W0, bigSep_W0]
  rw [show cfg0.idle 1 (cfg0.grid.coords t) = false from hlive_idle _]
  exact sound_body0 V c t

end Cert.Kernel.Fr

end
-- ==== Proof.K.Reg1.lean ====
/-
  The second kernel region (the quantizer) on its own, at a parameter `V`: the contents of the TensorCore's
  buffers when the region is entered. Each grid point reads one block of 256 rows of the reshaped input and the two
  1×1 scale arrays, and stores one block of 256 rows of the result: the stored block is the payload of the three
  blocks read, so the staging buffer of the result after the body is that payload whatever it held before.
-/
import proofs.«137072_j45449343926973_2_alg».proof.Proof.Gen.Kernel.Launch
import proofs.«137072_j45449343926973_2_alg».proof.Proof.Gen.Kernel.Skeleton
import proofs.«137072_j45449343926973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 256×4096 block and the whole 1×1 block, as the body's loads and its store name them. -/
abbrev rq : Rect S256x4096 := Rect.unit (s := S256x4096) ![0, 0] S256x4096.size inb_S256x4096_S256x4096_0_0
abbrev rs : Rect S1x1 := Rect.unit (s := S1x1) ![0, 0] S1x1.size inb_S1x1_S1x1_0_0

/-- What the body leaves in the result's staging buffer: its one store, of the payload of the three blocks read. -/
def out1_3 (x0 : Vec F S256x4096 .f32) (x1 x2 : Vec F S1x1 .f32) : Vec F S256x4096 .f32 :=
  View.canon [⟨rq, k1_pay1 (View.ld x0 rq) (View.ld x1 rs) (View.ld x2 rs)⟩]

/-- The one store is of the whole block, so it covers it. -/
theorem cover1_3 (p0 : Vec F S256x4096 .f32) (y : S256x4096.Idx) :
    ∃ pc ∈ ([⟨rq, p0⟩] : List (View.Piece (Elt F) S256x4096 .f32)), y ∈ pc.1.set :=
  View.cover_of_tiled [⟨rq, p0⟩] S256x4096.size (by rfl) y

set_option maxHeartbeats 1000000 in
/-- The body on whole staging memrefs, the three inputs' at contents `x0 x1 x2` and the result's at anything, runs to
    the continuation holding the inputs' as they were and the result's at `out1_3 x0 x1 x2`. -/
theorem sound_kernel1 (c : Dev nD) (E : Set ℕ) (i : grid1.Coords)
    (arg1 : Memref sig .tc .vmem S256x4096 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S256x4096 .f32) (harg4 : arg4.IsWhole)
    (x0 : Vec F S256x4096 .f32) (x1 x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__quantize_kernel i arg1 harg1 arg2 harg2 arg3 harg3 arg4 harg4) K := by
  simp only [cc1__quantize_kernel_eq_skeleton]; unfold cc1__quantize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body at point `t` each
    input's buffer at its block and the result's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Run.lean ====
/-
  The run of @main: a reshape, the first kernel region (the running maximum), the scalar host chain from the maximum to the
  two scales, the second kernel region (the quantizer), a reshape. The contents of the TensorCore's unscoped buffers at
  every boundary between two of these are named by a fold from the launch memory (`W0` … `W7`): a host stretch applies its
  operations, a region leaves its arrays at what its write-backs leave and every other buffer as it found it. Every
  weakly fair execution terminates without a fault, and the final memory holds every unscoped buffer at `W7`.
-/
import proofs.«137072_j45449343926973_2_alg».proof.Proof.Gen.Kernel.Launch
import proofs.«137072_j45449343926973_2_alg».proof.Proof.Gen.Kernel.Skeleton
import proofs.«137072_j45449343926973_2_alg».proof.Proof.Gen.Kernel.Points
import proofs.«137072_j45449343926973_2_alg».proof.Proof.K.Reg0
import proofs.«137072_j45449343926973_2_alg».proof.Proof.K.Reg1
import proofs.«137072_j45449343926973_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the three stretches of the scalar chain (the second region's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev U5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- After the last reshape. -/
abbrev W7 : Dev nD → Valuation τ sig (Elt F) := fun c => StableHlo.after hostOps2 (W6 m ρ c)

/-! ## The argument ends as launched: no host operation and no region writes it -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (r := main_arg0) (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (r := main_arg0) (by decide)
    _ = W3 m ρ c (Proc.devRef .tc main_arg0) := StableHlo.after_of_writes_sub hostOps1_1 _ hostOps1_1_writes (r := main_arg0) (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := StableHlo.held (c : Thread nD τ) (Pipeline.ucRefs τ sig) (W7 m ρ c)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W5`, left at `W6`. Its arrays are split
    out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

/-- @main is the run of the segments. -/
theorem main_run (c : Dev nD) : main (F := F) c = Pipeline.Seg.run (segs m ρ) := by
  rw [main_chain c, Pipeline.Seg.run_eq_chain]; rfl

set_option backward.isDefEq.respectTransparency.types false in
/-- THE RUN: from any memory with zero counters, every weakly fair execution of @main terminates, nothing faulting, and
    the final memory holds every unscoped buffer of every core at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

/-- THE FRAME at any `F`: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W7_main_arg0 m ρ c)) (run_all m ρ)

/-- The run read at the result and at the argument. -/
theorem run_result : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)) :=
  (θ_run defs _ _).mono (fun _ h c => ⟨h c _ (mem_uc main_v20 (by decide)),
    (h c _ (mem_uc main_arg0 (by decide))).trans (W7_main_arg0 m ρ c)⟩) (run_all m ρ)

end Cert.Kernel.Fr

end
-- ==== Proof.KI.Reg0.lean ====
/-
  The first kernel region (the running maximum) on its own, at a parameter `V`: the contents of the TensorCore's
  buffers when the region is entered. Each of the 64 grid points reads one block of 512 rows of the reshaped input.
  The 1×1 result's block index never moves, so its staging buffer is written back only after the last point and
  carries the running maximum from point to point: the first point stores the block's maximum, every later point the
  maximum of what the buffer held and the block's maximum. The two conditions the stores stand under are
  complementary (the point is the first, or it is not), so the result's buffer is stored at every point.
-/
import proofs.«137072_j45449343926973_2_alg».proof.Proof.Gen.KernelIdeal.Launch
import proofs.«137072_j45449343926973_2_alg».proof.Proof.Gen.KernelIdeal.Skeleton
import proofs.«137072_j45449343926973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, decided -/

/-- Over the 64 values of the one grid coordinate: the first condition holds exactly at 0, the second exactly away from it. -/
theorem cond_table : ∀ n : Fin 64,
    ((Scalar.cmpi .ne (Scalar.extui (Scalar.cmpi .eq (BitVec.ofNat 32 n.val) 0#32)) 0#32 = 1#1) ↔ n.val = 0) ∧
    ((Scalar.cmpi .ne (Scalar.extui (Scalar.cmpi .ne (BitVec.ofNat 32 n.val) 0#32)) 0#32 = 1#1) ↔ n.val ≠ 0) := by
  decide +kernel

theorem hcond1 (i : grid0.Coords) : k0_cond1 i = 1#1 ↔ (i 0).val = 0 := (cond_table (i 0)).1
theorem hcond2 (i : grid0.Coords) : k0_cond2 i = 1#1 ↔ (i 0).val ≠ 0 := (cond_table (i 0)).2

/-- The same at the grid's points. -/
theorem hcondT : ∀ t : Fin cfg0.N, ((grid0.coords t) 0).val = t.val :=
  (by decide +kernel : ∀ t : Fin grid0.N, ((grid0.coords t) 0).val = t.val)

/-- The result's window is idle at no setting of the coordinate: one of the two stores is always taken. -/
theorem hlive_idle (i : grid0.Coords) : idle0 1 i = false := by
  show (!(k0_cond1 i == 1#1) && !(k0_cond2 i == 1#1)) = false
  by_cases h : (i 0).val = 0
  · have h1 := (hcond1 i).mpr h
    rw [h1]; rfl
  · have h2 := (hcond2 i).mpr h
    rw [h2]; simp

theorem hlive0_1 (i : grid0.Coords) : cfg0.idle 1 i = false := hlive_idle i

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the result's staging buffer, case by case -/

abbrev rb : Rect S512x4096 := Rect.unit (s := S512x4096) ![0, 0] S512x4096.size inb_S512x4096_S512x4096_0_0
abbrev ro : Rect S1x1 := Rect.unit (s := S1x1) ![0, 0] S1x1.size inb_S1x1_S1x1_0_0

/-- At the first point: the block's maximum. -/
def outA (x0 : Vec F S512x4096 .f32) : Vec F S1x1 .f32 :=
  View.canon [⟨ro, k0_pay1 (View.ld x0 rb)⟩]

/-- At a later point: the maximum of what the buffer held and the block's maximum. -/
def outB (x0 : Vec F S512x4096 .f32) (xo : Vec F S1x1 .f32) : Vec F S1x1 .f32 :=
  View.canon [⟨ro, k0_pay2 (View.ld x0 rb) (View.ld xo ro)⟩]

/-- Either store is of the whole 1×1 block. -/
theorem coverO (p0 : Vec F S1x1 .f32) (y : S1x1.Idx) :
    ∃ pc ∈ ([⟨ro, p0⟩] : List (View.Piece (Elt F) S1x1 .f32)), y ∈ pc.1.set :=
  View.cover_of_tiled [⟨ro, p0⟩] S1x1.size (by rfl) y

set_option maxHeartbeats 1000000 in
/-- The body where the first condition holds and the second fails: the input's buffer at `x0`, the result's at anything. -/
theorem sound_kernel0_A (c : Dev nD) (E : Set ℕ) (i : grid0.Coords)
    (arg1 : Memref sig .tc .vmem S512x4096 .f32) (harg1 : arg1.IsWhole) (arg2 : Memref sig .tc .vmem S1x1 .f32) (harg2 : arg2.IsWhole)
    (hc1 : k0_cond1 i = 1#1) (hc2 : ¬ k0_cond2 i = 1#1)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outA x0)) -∗ K ⟨⟩))
      ⊢ wp frame (wpE (defs₀ (F := F)) Variants.none c none) E (cc0__reduce_max_kernel i arg1 harg1 arg2 harg2) K := by
  simp only [cc0__reduce_max_kernel_eq_skeleton]; unfold cc0__reduce_max_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverO _)

set_option maxHeartbeats 1000000 in
/-- The body where the first condition fails and the second holds: the input's buffer at `x0`, the result's at `xo`. -/
theorem sound_kernel0_B (c : Dev nD) (E : Set ℕ) (i : grid0.Coords)
    (arg1 : Memref sig .tc .vmem S512x4096 .f32) (harg1 : arg1.IsWhole) (arg2 : Memref sig .tc .vmem S1x1 .f32) (harg2 : arg2.IsWhole)
    (hc1 : ¬ k0_cond1 i = 1#1) (hc2 : k0_cond2 i = 1#1)
    (x0 : Vec F S512x4096 .f32) (xo : Vec F S1x1 .f32) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (outB x0 xo)) -∗ K ⟨⟩))
      ⊢ wp frame (wpE (defs₀ (F := F)) Variants.none c none) E (cc0__reduce_max_kernel i arg1 harg1 arg2 harg2) K := by
  simp only [cc0__reduce_max_kernel_eq_skeleton]; unfold cc0__reduce_max_kernel_skel
  unfold owns
  iintro ⟨⟨%f0, %hf0, H0⟩, ⟨%f1, %hf1, H1⟩, Hk⟩
  subst hf0; subst hf1
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (coverO _)

/-! ## The running maximum, point by point -/

/-- What the result's staging buffer holds after the body at position `n`: the block's maximum at the first point, then the
    maximum of what the point before left and the block's. -/
def acc0 (c : Dev nD) : (n : ℕ) → n < cfg0.N → Vec F S1x1 .f32
  | 0, hn => outA (iblk0 V c 0 ⟨0, hn⟩)
  | n + 1, hn => outB (iblk0 V c 0 ⟨n + 1, hn⟩) (acc0 c n (Nat.lt_of_succ_lt hn))

theorem acc0_zero (c : Dev nD) (t : Fin cfg0.N) (h0 : t.val = 0) : acc0 V c t.val t.isLt = outA (iblk0 V c 0 t) := by
  obtain ⟨n, hn⟩ := t
  cases n with
  | zero => rfl
  | succ n => exact absurd h0 (Nat.succ_ne_zero n)

theorem acc0_succ (c : Dev nD) (t : Fin cfg0.N) (h0 : t.val ≠ 0) :
    acc0 V c t.val t.isLt = outB (iblk0 V c 0 t) (acc0 V c (t.val - 1) (Nat.lt_of_le_of_lt (Nat.sub_le _ _) t.isLt)) := by
  obtain ⟨n, hn⟩ := t
  cases n with
  | zero => exact absurd rfl h0
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first point the result's staging buffer holds what the body left at the point before: the buffer is not
    written back between two points (only after the last), the window is never idle and its block is never clipped. -/
theorem before0_1_B (c : Dev nD) (t : Fin cfg0.N) (h0 : t.val ≠ 0) (d) :
    (dat0 V c).before 1 t d = acc0 V c (t.val - 1) (Nat.lt_of_le_of_lt (Nat.sub_le _ _) t.isLt) := by
  have hN : t.val < 64 := lt_of_lt_of_eq t.isLt (show cfg0.N = 64 from N_0)
  rw [Dat.before_out_kept _ 1 rfl t h0 (Bool.eq_false_iff.mpr fun h => by have := (flush0_1 _).mp h; dsimp only at this; omega)
    hlive0_1 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- The body at any point: the input's memref holds its block; the point is the first or it is not; after the first
    the result's memref holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val = 0
  · have hi : ((grid0.coords t) 0).val = 0 := (hcondT t).trans h0
    rw [acc0_zero V c t h0]
    iintro ⟨HΦ, Ho, ⟨%d0, H0⟩, ⟨%d1, H1⟩⟩
    iapply (sound_kernel0_A c Set.univ (grid0.coords t) _ _ _ _ ((hcond1 _).mpr hi) (fun h => (hcond2 _).mp h hi) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · have hi : ((grid0.coords t) 0).val ≠ 0 := fun h => h0 ((hcondT t).symm.trans h)
    rw [acc0_succ V c t h0]
    simp only [before0_1_B V c t h0]
    iintro ⟨HΦ, Ho, ⟨%d0, H0⟩, ⟨%d1, H1⟩⟩
    iapply (sound_kernel0_B c Set.univ (grid0.coords t) _ _ _ _ (fun h => hi ((hcond1 _).mp h)) ((hcond2 _).mpr hi) (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

/-- The library's body obligation, at every point: the result's window is live everywhere, so what the body must
    leave is the stated contents at every point. -/
theorem body_obligation0 (c : Dev nD) : BodyObligation (dat0 (F := F) V c) (defs₀ (F := F)) Variants.none () Set.univ := fun t => by
  rw [bigSep_W0, bigSep_W0]
  rw [show cfg0.idle 1 (cfg0.grid.coords t) = false from hlive_idle _]
  exact sound_body0 V c t

end Cert.KernelIdeal.Fr

end
-- ==== Proof.KI.Reg1.lean ====
/-
  The second kernel region (the quantizer) on its own, at a parameter `V`: the contents of the TensorCore's
  buffers when the region is entered. Each grid point reads one block of 256 rows of the reshaped input and the two
  1×1 scale arrays, and stores one block of 256 rows of the result: the stored block is the payload of the three
  blocks read, so the staging buffer of the result after the body is that payload whatever it held before.
-/
import proofs.«137072_j45449343926973_2_alg».proof.Proof.Gen.KernelIdeal.Launch
import proofs.«137072_j45449343926973_2_alg».proof.Proof.Gen.KernelIdeal.Skeleton
import proofs.«137072_j45449343926973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole 256×4096 block and the whole 1×1 block, as the body's loads and its store name them. -/
abbrev rq : Rect S256x4096 := Rect.unit (s := S256x4096) ![0, 0] S256x4096.size inb_S256x4096_S256x4096_0_0
abbrev rs : Rect S1x1 := Rect.unit (s := S1x1) ![0, 0] S1x1.size inb_S1x1_S1x1_0_0

/-- What the body leaves in the result's staging buffer: its one store, of the payload of the three blocks read. -/
def out1_3 (x0 : Vec F S256x4096 .f32) (x1 x2 : Vec F S1x1 .f32) : Vec F S256x4096 .f32 :=
  View.canon [⟨rq, k1_pay1 (View.ld x0 rq) (View.ld x1 rs) (View.ld x2 rs)⟩]

/-- The one store is of the whole block, so it covers it. -/
theorem cover1_3 (p0 : Vec F S256x4096 .f32) (y : S256x4096.Idx) :
    ∃ pc ∈ ([⟨rq, p0⟩] : List (View.Piece (Elt F) S256x4096 .f32)), y ∈ pc.1.set :=
  View.cover_of_tiled [⟨rq, p0⟩] S256x4096.size (by rfl) y

set_option maxHeartbeats 1000000 in
/-- The body on whole staging memrefs, the three inputs' at contents `x0 x1 x2` and the result's at anything, runs to
    the continuation holding the inputs' as they were and the result's at `out1_3 x0 x1 x2`. -/
theorem sound_kernel1 (c : Dev nD) (E : Set ℕ) (i : grid1.Coords)
    (arg1 : Memref sig .tc .vmem S256x4096 .f32) (harg1 : arg1.IsWhole) (arg2 : Memref sig .tc .vmem S1x1 .f32) (harg2 : arg2.IsWhole)
    (arg3 : Memref sig .tc .vmem S1x1 .f32) (harg3 : arg3.IsWhole) (arg4 : Memref sig .tc .vmem S256x4096 .f32) (harg4 : arg4.IsWhole)
    (x0 : Vec F S256x4096 .f32) (x1 x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__quantize_kernel i arg1 harg1 arg2 harg2 arg3 harg3 arg4 harg4) K := by
  simp only [cc1__quantize_kernel_eq_skeleton]; unfold cc1__quantize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body at point `t` each
    input's buffer at its block and the result's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The run of @main: a reshape, the first kernel region (the running maximum), the scalar host chain from the maximum to the
  two scales, the second kernel region (the quantizer), a reshape. The contents of the TensorCore's unscoped buffers at
  every boundary between two of these are named by a fold from the launch memory (`W0` … `W7`): a host stretch applies its
  operations, a region leaves its arrays at what its write-backs leave and every other buffer as it found it. Every
  weakly fair execution terminates without a fault, and the final memory holds every unscoped buffer at `W7`.
-/
import proofs.«137072_j45449343926973_2_alg».proof.Proof.Gen.KernelIdeal.Launch
import proofs.«137072_j45449343926973_2_alg».proof.Proof.Gen.KernelIdeal.Skeleton
import proofs.«137072_j45449343926973_2_alg».proof.Proof.Gen.KernelIdeal.Points
import proofs.«137072_j45449343926973_2_alg».proof.Proof.KI.Reg0
import proofs.«137072_j45449343926973_2_alg».proof.Proof.KI.Reg1
import proofs.«137072_j45449343926973_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the three stretches of the scalar chain (the second region's entry). -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev U5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- After the last reshape. -/
abbrev W7 : Dev nD → Valuation τ sig (Elt F) := fun c => StableHlo.after hostOps2 (W6 m ρ c)

/-! ## The argument ends as launched: no host operation and no region writes it -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps2 _ hostOps2_writes (r := main_arg0) (by decide)
    _ = W5 m ρ c (Proc.devRef .tc main_arg0) := W6_of_ne m ρ c main_arg0 (by decide)
    _ = W4 m ρ c (Proc.devRef .tc main_arg0) := StableHlo.after_of_writes_sub hostOps1_2 _ hostOps1_2_writes (r := main_arg0) (by decide)
    _ = W3 m ρ c (Proc.devRef .tc main_arg0) := StableHlo.after_of_writes_sub hostOps1_1 _ hostOps1_1_writes (r := main_arg0) (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev Tₙ (c : Dev nD) : sProp 𝕄 := StableHlo.held (c : Thread nD τ) (Pipeline.ucRefs τ sig) (W7 m ρ c)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W5`, left at `W6`. Its arrays are split
    out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

/-- @main is the run of the segments. -/
theorem main_run (c : Dev nD) : main (F := F) c = Pipeline.Seg.run (segs m ρ) := by
  rw [main_chain c, Pipeline.Seg.run_eq_chain]; rfl

set_option backward.isDefEq.respectTransparency.types false in
/-- THE RUN: from any memory with zero counters, every weakly fair execution of @main terminates, nothing faulting, and
    the final memory holds every unscoped buffer of every core at the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

/-- THE FRAME at any `F`: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W7_main_arg0 m ρ c)) (run_all m ρ)

/-- The run read at the result and at the argument. -/
theorem run_result : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)) :=
  (θ_run defs _ _).mono (fun _ h c => ⟨h c _ (mem_uc main_v20 (by decide)),
    (h c _ (mem_uc main_arg0 (by decide))).trans (W7_main_arg0 m ρ c)⟩) (run_all m ρ)

end Cert.KernelIdeal.Fr

end
-- ==== Proof.Spec.lean ====
/-
  The quantizer's scalar mathematics on the extended reals.

  An entry x is first pushed away from zero: where x ≥ 0 it becomes max(x, ε), elsewhere min(x, -ε), with ε the
  single-precision word printed for 1e-10 (and -ε the word printed for -1e-10). Its magnitude is the absolute value
  of the pushed entry. Given a scale `mul` and its inverse scale `demul`, the quantized entry is the pushed entry
  times `mul`, rounded to the nearest integer (ties to even), clipped into [-128, 127], times `demul`.

  The five constants are kept as the words the programs print; they are the same words on both sides and are never
  evaluated. The operand orders are the printed ones: max(-128, r), min(127, ·), (pushed x) · mul, (clipped) · demul.
-/
import Idealize.ShloMosaic.PureOps.Ideal
import Idealize.ShloMosaic.Lib.ValueIdx

noncomputable section

namespace Cert.Quant

open Idealize.ShloMosaic

/-- An entry pushed away from zero: max(x, ε) where x ≥ 0, min(x, -ε) elsewhere. -/
def push (x : Ideal .f32) : Ideal .f32 :=
  Scalar.select (Ideal.cmp .oge x (Ideal.ofBits .f32 0x00000000#32))
    (max x (Ideal.ofBits .f32 0x2EDBE6FF#32))
    (min x (Ideal.ofBits .f32 0xAEDBE6FF#32))

/-- The magnitude of the pushed entry. -/
def mag (x : Ideal .f32) : Ideal .f32 := max (push x) (-push x)

/-- The quantized entry: round-to-even of (pushed x) · mul, clipped into [-128, 127], times demul. -/
def quant (mul demul x : Ideal .f32) : Ideal .f32 :=
  min (Ideal.ofBits .f32 0x42FE0000#32)
      (max (Ideal.ofBits .f32 0xC3000000#32) (Ideal.liftRound Ideal.roundHalfEven (push x * mul))) * demul

/-- The magnitude written with the instance's absolute value. -/
theorem mag_eq_absf (x : Ideal .f32) : mag x = FloatOps.absf (F := Ideal) (push x) := rfl

/-- The word printed for -∞ is the bottom of the extended reals. -/
theorem ofBits_neg_inf : Ideal.ofBits .f32 0xFF800000#32 = (⊥ : EReal) := by
  simp [Ideal.ofBits, Ideal.ieee]

end Cert.Quant

end
-- ==== Proof.LibRowReduce.lean ====
/-
  A row of an n×d array reduced along its d entries, read at the row, at the ideal values.

  * The sum over the second axis of an n×d array, read at row p, is the sum over c of the entries (p, c).
  * The maximum over the second axis, folded from the -inf literal, read at row p, is the fold of max from that literal
    over c of the entries (p, c).
  Both are the library's reading of a one-axis reduction with the index that has the reduced coordinate inserted written
  out by its two coordinates; the accumulator's hypothesis is typed as the printed programs type it.
-/
import Idealize.ShloMosaic.Lib.ValueIdx
import Idealize.ShloMosaic.PureOps.Ideal.Laws

namespace Cert.LibRowReduce

open Idealize.ShloMosaic Idealize.ShloMosaic.ValueIdx

/-- The sum over the second axis of an n×d array, read at row p. -/
theorem sum_axis1_apply {n d : ℕ} (x : FVec Ideal ⟨2, ![n, d]⟩ .f32) (h : (⟨2, ![n, d]⟩ : Shape).Reduces [1] ⟨1, ![n]⟩)
    (hφ : FKind.Formats .f32) (hacc : (0x00000000#32 : BitVec 32) = FKind.add.neutral .f32 hφ) (p : Fin n) :
    multiReduction .add [1] ⟨1, ![n]⟩ x 0x00000000#32 h hφ hacc (ix1 p) = ∑ c : Fin d, x (ix2 p c) := by
  refine (Ideal.multiReduction_add_single x _ h hφ hacc (ix1 p)).trans ?_
  refine Finset.sum_congr rfl fun c _ => congrArg x ?_
  funext ax; apply Fin.ext
  match ax with
  | ⟨0, _⟩ => rfl
  | ⟨1, _⟩ => rfl

/-- The maximum over the second axis of an n×d array, folded from -inf, read at row p. -/
theorem max_axis1_apply {n d : ℕ} (z : FVec Ideal ⟨2, ![n, d]⟩ .f32) (h : (⟨2, ![n, d]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ z 0xFF800000#32 h hφ hacc (ix1 p)
      = (Finset.univ : Finset (Fin d)).fold max (Ideal.ofBits .f32 0xFF800000#32) fun c : Fin d => z (ix2 p c) := by
  refine (Ideal.multiReduction_maximumf_single z _ h hφ hacc (ix1 p)).trans ?_
  refine Finset.fold_congr fun c _ => congrArg z ?_
  funext ax; apply Fin.ext
  match ax with
  | ⟨0, _⟩ => rfl
  | ⟨1, _⟩ => rfl

end Cert.LibRowReduce
-- ==== Proof.KernelPay.lean ====
/-
  The kernel's three stored values read at an index, on the extended reals.

  * The first call's block value: the block's entries are pushed away from zero, their magnitudes are maximised along
    each row, the 512 row maxima are maximised, and the result is a one-entry matrix. A maximum folded from -∞ is
    characterised by what it lies below: the block value lies below z exactly when every entry's magnitude does.
  * The first call's running value is the maximum of the accumulator and the block value.
  * The second call's block value at (p, q) is the quantizer's scalar formula at the entry (p, q), with the two scales
    read from their one-entry matrices.
-/
import proofs.«137072_j45449343926973_2_alg».proof.Proof.Gen.KernelIdeal.Skeleton
import proofs.«137072_j45449343926973_2_alg».proof.Proof.Spec
import proofs.«137072_j45449343926973_2_alg».proof.Proof.LibRowReduce
import Idealize.ShloMosaic.Lib.ValueLayout
import Idealize.ShloMosaic.Lib.Pipeline.Value
import Idealize.ShloMosaic.PureOps.Ideal.Laws

noncomputable section

namespace Cert.Quant

open Idealize.ShloMosaic Idealize.ShloMosaic.ValueIdx Cert.KernelIdeal Cert.KernelIdeal.Gen

/-! ## Layout operations of the two bodies, read at an index -/

/-- Every index of a one-entry matrix is (0, 0). -/
theorem idx1x1_eq (j : S1x1.Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- A one-entry matrix broadcast to m × n reads its one entry everywhere. -/
theorem broadcastTo_1x1_apply {α : Type} {m n : ℕ} (v : (⟨2, ![1, 1]⟩ : Shape).Idx → α)
    (h : (⟨2, ![1, 1]⟩ : Shape).Broadcasts ⟨2, ![m, n]⟩) (p : Fin m) (q : Fin n) :
    broadcastTo ⟨2, ![m, n]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A vector of n entries viewed as an n × 1 column reads, at (r, 0), the vector at r. -/
theorem shapeCast_a_a1_apply {α : Type} {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The maximum over the first axis of an n × d array, folded from -∞, read at column c: the fold of max over the
    rows r of the entries (r, c). -/
theorem max_axis0_apply {n d : ℕ} (z : FVec Ideal ⟨2, ![n, d]⟩ .f32) (h : (⟨2, ![n, d]⟩ : Shape).Reduces [0] ⟨1, ![d]⟩)
    (hφ : FKind.Formats .f32) (hacc : (0xFF800000#32 : BitVec 32) = FKind.maximumf.neutral .f32 hφ) (c : Fin d) :
    multiReduction .maximumf [0] ⟨1, ![d]⟩ z 0xFF800000#32 h hφ hacc (ix1 c)
      = (Finset.univ : Finset (Fin n)).fold max (Ideal.ofBits .f32 0xFF800000#32) fun r : Fin n => z (ix2 r c) := by
  refine (Ideal.multiReduction_maximumf_single z _ h hφ hacc (ix1 c)).trans ?_
  refine Finset.fold_congr fun r _ => congrArg z ?_
  funext ax; apply Fin.ext
  match ax with
  | ⟨0, _⟩ => rfl
  | ⟨1, _⟩ => rfl

/-! ## The first call's stored values -/

/-- The magnitudes the first call's body maximises, at an entry of the block. -/
theorem k0_mag_apply (X : Vec Ideal S512x4096 .f32) (p : Fin 512) (q : Fin 4096) :
    absf (select (cmpf .oge X (broadcast S512x4096 (FloatOps.ofBits (F := Ideal) .f32 0x00000000#32)))
        (maximumf X (broadcast S512x4096 (FloatOps.ofBits (F := Ideal) .f32 0x2EDBE6FF#32)))
        (minimumf X (broadcast S512x4096 (FloatOps.ofBits (F := Ideal) .f32 0xAEDBE6FF#32)))) (ix2 p q)
      = mag (X (ix2 p q)) := rfl

/-- The block value lies below z exactly when every entry's magnitude does. -/
theorem k0_pay1_le_iff (X : Vec Ideal S512x4096 .f32) (z : EReal) :
    k0_pay1 (F := Ideal) X (ix2 0 0) ≤ z ↔ ∀ (p : Fin 512) (q : Fin 4096), mag (X (ix2 p q)) ≤ z := by
  have e : k0_pay1 (F := Ideal) X (ix2 0 0)
      = (Finset.univ : Finset (Fin 512)).fold max (Ideal.ofBits .f32 0xFF800000#32) fun r : Fin 512 =>
          (Finset.univ : Finset (Fin 4096)).fold max (Ideal.ofBits .f32 0xFF800000#32) fun c : Fin 4096 =>
            mag (X (ix2 r c)) := by
    unfold k0_pay1
    refine (shapeCast_a_1a_apply _ shapeCasts_S1_S1x1 (0 : Fin 1) (0 : Fin 1)).trans ?_
    refine (max_axis0_apply _ reduces_S512x1_S1 _ _ (0 : Fin 1)).trans ?_
    refine Finset.fold_congr fun r _ => ?_
    refine (shapeCast_a_a1_apply _ shapeCasts_S512_S512x1 r (0 : Fin 1)).trans ?_
    refine (LibRowReduce.max_axis1_apply _ reduces_S512x4096_S512 _ _ r).trans ?_
    refine Finset.fold_congr fun c _ => ?_
    rw [shapeCast_self]
    exact k0_mag_apply X r c
  rw [e]
  simp only [Finset.fold_max_le, ofBits_neg_inf, bot_le, true_and, Finset.mem_univ, forall_true_left]

/-- The running value is the maximum of the accumulator and the block value. -/
theorem k0_pay2_apply (X : Vec Ideal S512x4096 .f32) (a : Vec Ideal S1x1 .f32) (j : S1x1.Idx) :
    k0_pay2 (F := Ideal) X a j = max (a j) (k0_pay1 (F := Ideal) X j) := by
  unfold k0_pay2
  simp only [shapeCast_self]
  rfl

/-! ## The second call's stored value -/

/-- The second call's block value at (p, q): the quantizer's formula at the entry (p, q). -/
theorem k1_pay1_apply (X : Vec Ideal S256x4096 .f32) (a b : Vec Ideal S1x1 .f32) (p : Fin 256) (q : Fin 4096) :
    k1_pay1 (F := Ideal) X a b (ix2 p q) = Cert.Quant.quant (a (ix2 0 0)) (b (ix2 0 0)) (X (ix2 p q)) := by
  unfold k1_pay1
  simp only [shapeCast_self]
  have ea := broadcastTo_1x1_apply a broadcasts_S1x1_S256x4096 p q
  have eb := broadcastTo_1x1_apply b broadcasts_S1x1_S256x4096 p q
  show (min _ (max _ (Ideal.liftRound Ideal.roundHalfEven
      (_ * broadcastTo S256x4096 a broadcasts_S1x1_S256x4096 (ix2 p q)))))
      * broadcastTo S256x4096 b broadcasts_S1x1_S256x4096 (ix2 p q) = _
  rw [ea, eb]
  rfl

end Cert.Quant

end
-- ==== Proof.KI.Value0.lean ====
/-
  What the running-maximum region leaves in its 1×1 result array, at Ideal. The result's block is written back once,
  after the last of the 64 points, so the array ends holding what the staging buffer held then: the running maximum.
  Its one entry is bounded by `z` exactly when the magnitude of every entry of every one of the 64 row-blocks is:
  the first point stores the block's maximum, every later point the maximum of the carried value and the block's.
-/
import proofs.«137072_j45449343926973_2_alg».proof.Proof.KI.Reg0
import proofs.«137072_j45449343926973_2_alg».proof.Proof.KernelPay
import Idealize.ShloMosaic.Lib.Pipeline.Value
import Idealize.ShloMosaic.Lib.ValueIdx
import Idealize.ShloMosaic.Lib.Pipeline.FrameBody
import Idealize.ShloMosaic.Lib.Tactic

set_option maxRecDepth 16384

noncomputable section

namespace Cert.KernelIdeal.Fr

open Cert.KernelIdeal Cert.KernelIdeal.Gen Cert.Quant
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The first point's store is the block's maximum; a later point's the maximum of the carried value and the block's. -/
theorem outA_eq (x0 : Vec Ideal S512x4096 .f32) : outA (F := Ideal) x0 = k0_pay1 (F := Ideal) x0 := by
  unfold outA
  rw [View.canon_unit_zero hz0]
  simp only [View.ld_unit_zero (S := S512x4096) hz0]
theorem outB_eq (x0 : Vec Ideal S512x4096 .f32) (xo : Vec Ideal S1x1 .f32) : outB (F := Ideal) x0 xo = k0_pay2 (F := Ideal) x0 xo := by
  unfold outB
  rw [View.canon_unit_zero hz0]
  simp only [View.ld_unit_zero (S := S512x4096) hz0, View.ld_unit_zero (S := S1x1) hz0]

theorem lt63 : 63 < cfg0.N := lt_of_lt_of_eq (by decide : 63 < 64) N_0.symm

/-- The printed index maps, decided over the grid: the input's block index is the point; the result's never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The input's block at point `t`, entry `(p, q)`, is the array's entry at row `t·512 + p`. -/
theorem iblk0_apply (c : Dev nD) (t : Fin cfg0.N) (p : Fin 512) (q : Fin 4096) (hr : t.val * 512 + p.val < 32768) :
    iblk0 V c 0 t (ix2 p q) = V c main_v0 (ix2 (⟨t.val * 512 + p.val, hr⟩ : Fin 32768) q) := by
  obtain ⟨e0, e1, -, -⟩ := idx_facts0 t
  show V c main_v0 (((cfg0.win 0).blk t).view.emb (ix2 p q)) = V c main_v0 (ix2 (⟨t.val * 512 + p.val, hr⟩ : Fin 32768) q)
  refine congrArg _ ?_
  funext a; apply Fin.ext
  match a with
  | ⟨0, _⟩ => show win0_0.index t (0 : Fin 2) * 512 + 1 * p.val = t.val * 512 + p.val; omega
  | ⟨1, _⟩ => show win0_0.index t (1 : Fin 2) * 4096 + 1 * q.val = q.val; omega

/-- THE RUNNING MAXIMUM by its upper bounds: after position `n` the carried entry is at most `z` iff the magnitude of every
    entry of the blocks `0 … n` is. -/
theorem acc0_le_iff (c : Dev nD) (z : EReal) : ∀ (n : ℕ) (hn : n < cfg0.N),
    acc0 V c n hn (ix2 (0 : Fin 1) (0 : Fin 1)) ≤ z ↔
      ∀ (k : ℕ) (hk : k ≤ n) (p : Fin 512) (q : Fin 4096), mag (iblk0 V c 0 ⟨k, lt_of_le_of_lt hk hn⟩ (ix2 p q)) ≤ z
  | 0, hn => by
    rw [show acc0 V c 0 hn = k0_pay1 (F := Ideal) (iblk0 V c 0 ⟨0, hn⟩) from outA_eq _]
    refine (k0_pay1_le_iff (iblk0 V c 0 ⟨0, hn⟩) z).trans ⟨fun h k hk p q => ?_, fun h p q => h 0 le_rfl p q⟩
    obtain rfl : k = 0 := Nat.le_zero.mp hk
    exact h p q
  | n + 1, hn => by
    rw [show acc0 V c (n + 1) hn = k0_pay2 (F := Ideal) (iblk0 V c 0 ⟨n + 1, hn⟩) (acc0 V c n (Nat.lt_of_succ_lt hn)) from outB_eq _ _,
      k0_pay2_apply, max_le_iff, acc0_le_iff c z n (Nat.lt_of_succ_lt hn)]
    refine (and_congr_right fun _ => k0_pay1_le_iff (iblk0 V c 0 ⟨n + 1, hn⟩) z).trans ⟨fun ⟨h1, h2⟩ k hk p q => ?_, fun h => ⟨fun k hk p q => h k (Nat.le_succ_of_le hk) p q, fun p q => h (n + 1) le_rfl p q⟩⟩
    rcases Nat.lt_or_ge k (n + 1) with hlt | hge
    · exact h1 k (Nat.lt_succ_iff.mp hlt) p q
    · obtain rfl : k = n + 1 := le_antisymm hk hge
      exact h2 p q

/-- An index of the 1×1 array is in the one block. -/
theorem mem_blk0 (t : Fin cfg0.N) (i : S1x1.Idx) :
    i ∈ ((cfg0.win 1).blk t).view.set ↔ ∀ a : Fin 2, win0_1.index t a * S1x1.size a ≤ (i a).val ∧ (i a).val < win0_1.index t a * S1x1.size a + S1x1.size a := by
  show i ∈ ((View.whole main_v1).slice (win0_1.rect t)).set ↔ _
  rw [View.set_slice_whole, Rect.mem_set_unit]
  exact Iff.rfl

/-- The last point writes back the running maximum, -/
theorem flushed0_eq (c : Dev nD) (t : Fin cfg0.N) (hf : (cfg0.win 1).flush t = true) :
    (dat0 V c).flushed 1 t = ((cfg0.win 1).blk t).view.read (Elt Ideal) (acc0 V c 63 lt63) := by
  have h63 : t.val = 63 := by
    have := (flush0_1 t).mp hf
    have hN : t.val < 64 := lt_of_lt_of_eq t.isLt (show cfg0.N = 64 from N_0)
    omega
  obtain ⟨n, hn⟩ := t
  dsimp only at h63; subst h63
  show (cfg0.win 1).cut (grid0.coords ⟨63, hn⟩) ((dat0 V c).after 1 ⟨63, hn⟩) = _
  rw [after0_1]
  funext j
  show acc0 V c 63 hn j = acc0 V c 63 lt63 (((cfg0.win 1).blk ⟨63, hn⟩).view.emb j)
  exact congrArg _ ((idx1x1_eq j).trans (idx1x1_eq _).symm)

/-- and its block is the whole array. -/
theorem cover0 (i : S1x1.Idx) :
    ∃ t : Fin cfg0.N, (cfg0.win 1).flush t = true ∧ i ∈ ((cfg0.win 1).blk t).view.set := by
  have hi0 : (i 0).val < 1 := (i 0).isLt
  have hi1 : (i 1).val < 1 := (i 1).isLt
  refine ⟨⟨63, lt63⟩, (flush0_1 _).mpr (by decide), ?_⟩
  obtain ⟨-, -, e2, e3⟩ := idx_facts0 ⟨63, lt63⟩
  rw [mem_blk0]
  intro a
  match a with
  | ⟨0, _⟩ => show win0_1.index ⟨63, lt63⟩ (0 : Fin 2) * 1 ≤ (i 0).val ∧ (i 0).val < win0_1.index ⟨63, lt63⟩ (0 : Fin 2) * 1 + 1; omega
  | ⟨1, _⟩ => show win0_1.index ⟨63, lt63⟩ (1 : Fin 2) * 1 ≤ (i 1).val ∧ (i 1).val < win0_1.index ⟨63, lt63⟩ (1 : Fin 2) * 1 + 1; omega

/-- The 1×1 array after the region holds the running maximum after the last point. -/
theorem final0 (c : Dev nD) : (dat0 V c).arrAt 1 cfg0.N = acc0 V c 63 lt63 :=
  (dat0 V c).arrAt_eq_of_cover 1 (acc0 V c 63 lt63) (fun t hf => flushed0_eq V c t hf) (cover0)

/-- Its entry is at most `z` iff the magnitude of every entry of the region's input array is. -/
theorem final0_le_iff (c : Dev nD) (z : EReal) :
    @LE.le EReal _ ((dat0 V c).arrAt 1 cfg0.N (ix2 (0 : Fin 1) (0 : Fin 1))) z ↔
      ∀ (t : Fin 64) (p : Fin 512) (q : Fin 4096), mag (V c main_v0 (ix2 (⟨t.val * 512 + p.val, by omega⟩ : Fin 32768) q)) ≤ z := by
  rw [final0, acc0_le_iff]
  constructor
  · intro h t p q
    have ht : t.val < cfg0.N := lt_of_lt_of_eq t.isLt N_0.symm
    have := h t.val (by omega) p q
    rwa [iblk0_apply V c ⟨t.val, _⟩ p q (by show t.val * 512 + p.val < 32768; omega)] at this
  · intro h k hk p q
    rw [iblk0_apply V c ⟨k, _⟩ p q (by show k * 512 + p.val < 32768; omega)]
    exact h ⟨k, by omega⟩ p q

end Cert.KernelIdeal.Fr

end
-- ==== Proof.KI.Value1.lean ====
/-
  What the quantizer region leaves in its result array, at Ideal: every grid point writes back one block of 256 rows,
  the 128 blocks tile the 32768 rows, and each written entry is the scalar quantizer of the input entry at the same
  index with the two scales read at the one entry of their 1×1 arrays. So the array ends as ONE pointwise function of
  the region-entry contents.
-/
import proofs.«137072_j45449343926973_2_alg».proof.Proof.KI.Reg1
import proofs.«137072_j45449343926973_2_alg».proof.Proof.KernelPay
import Idealize.ShloMosaic.Lib.Pipeline.Value
import Idealize.ShloMosaic.Lib.ValueIdx
import Idealize.ShloMosaic.Lib.Pipeline.FrameBody
import Idealize.ShloMosaic.Lib.Tactic

set_option maxRecDepth 16384

noncomputable section

namespace Cert.KernelIdeal.Fr

open Cert.KernelIdeal Cert.KernelIdeal.Gen Cert.Quant
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The result array as one function of the region-entry contents, index by index. -/
def G1 (c : Dev nD) : S32768x4096.Idx → Elt Ideal .f32 := fun i =>
  quant (V c main_v13 (ix2 (0 : Fin 1) (0 : Fin 1))) (V c main_v18 (ix2 (0 : Fin 1) (0 : Fin 1))) (V c main_v0 i)

/-- The payload at any index of the block. -/
theorem pay1_at (x0 : Vec Ideal S256x4096 .f32) (a b : Vec Ideal S1x1 .f32) (y : S256x4096.Idx) :
    k1_pay1 (F := Ideal) x0 a b y = quant (a (ix2 (0 : Fin 1) (0 : Fin 1))) (b (ix2 (0 : Fin 1) (0 : Fin 1))) (x0 y) := by
  obtain ⟨p, q, rfl⟩ : ∃ (p : Fin 256) (q : Fin 4096), y = ix2 p q := ⟨y 0, y 1, eq_ix2 y⟩
  exact k1_pay1_apply x0 a b p q

/-- The printed index maps, decided over the grid: the input block moves with the result block; the scales' blocks stay. -/
theorem idx_facts1 : ∀ t : Fin cfg1.N, win1_0.index t (0 : Fin 2) = win1_3.index t (0 : Fin 2)
    ∧ win1_0.index t (1 : Fin 2) = win1_3.index t (1 : Fin 2)
    ∧ win1_3.index t (0 : Fin 2) ≤ 127 ∧ win1_3.index t (1 : Fin 2) = 0 :=
  (by decide +kernel : ∀ t : Fin grid1.N, _)

/-- Every block of rows is some point's. -/
theorem idx_onto1 : ∀ (q0 : Fin 128), ∃ t : Fin cfg1.N, win1_3.index t = ![q0.val, 0] :=
  (by decide +kernel : ∀ (q0 : Fin 128), ∃ t : Fin grid1.N, win1_3.index t = ![q0.val, 0])

/-- What point `t` writes back is block `t` of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S256x4096) hz2, View.ld_unit_zero (S := S1x1) hz2]
  obtain ⟨e0, e1, e2, e3⟩ := idx_facts1 t
  funext j
  refine (pay1_at (iblk1 V c 0 t) (iblk1 V c 1 t) (iblk1 V c 2 t) j).trans ?_
  have h0 : iblk1 V c 0 t j = V c main_v0 (((cfg1.win 3).blk t).view.emb j) := by
    show V c main_v0 (((cfg1.win 0).blk t).view.emb j) = V c main_v0 (((cfg1.win 3).blk t).view.emb j)
    refine congrArg _ ?_
    funext a; apply Fin.ext
    match a with
    | ⟨0, _⟩ => show win1_0.index t (0 : Fin 2) * 256 + 1 * (j 0).val = win1_3.index t (0 : Fin 2) * 256 + 1 * (j 0).val; omega
    | ⟨1, _⟩ => show win1_0.index t (1 : Fin 2) * 4096 + 1 * (j 1).val = win1_3.index t (1 : Fin 2) * 4096 + 1 * (j 1).val; omega
  have h1 : iblk1 V c 1 t (ix2 (0 : Fin 1) (0 : Fin 1)) = V c main_v13 (ix2 (0 : Fin 1) (0 : Fin 1)) := by
    show V c main_v13 (((cfg1.win 1).blk t).view.emb (ix2 (0 : Fin 1) (0 : Fin 1))) = V c main_v13 (ix2 (0 : Fin 1) (0 : Fin 1))
    exact congrArg _ (idx1x1_eq _)
  have h2 : iblk1 V c 2 t (ix2 (0 : Fin 1) (0 : Fin 1)) = V c main_v18 (ix2 (0 : Fin 1) (0 : Fin 1)) := by
    show V c main_v18 (((cfg1.win 2).blk t).view.emb (ix2 (0 : Fin 1) (0 : Fin 1))) = V c main_v18 (ix2 (0 : Fin 1) (0 : Fin 1))
    exact congrArg _ (idx1x1_eq _)
  rw [h0, h1, h2]
  rfl

/-- An index of the array is in point `t`'s block iff each coordinate is in the block's range on its axis. -/
theorem mem_blk1 (t : Fin cfg1.N) (i : S32768x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v19).slice (win1_3.rect t)).set ↔ _
  rw [View.set_slice_whole, Rect.mem_set_unit]
  exact Iff.rfl

/-- Every index is in the block of the point its row belongs to: row `r` is in block `r / 256`. -/
theorem cover1 (i : S32768x4096.Idx) :
    ∃ t : Fin cfg1.N, (cfg1.win 3).flush t = true ∧ i ∈ ((cfg1.win 3).blk t).view.set := by
  have hi0 : (i 0).val < 32768 := (i 0).isLt
  have hi1 : (i 1).val < 4096 := (i 1).isLt
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 4096 ≤ (i 1).val ∧ (i 1).val < win1_3.index t (1 : Fin 2) * 4096 + 4096; omega

/-- The result array after the region: `G1` of the region-entry contents. -/
theorem final1 (c : Dev nD) : (dat1 V c).arrAt 3 cfg1.N = G1 V c :=
  (dat1 V c).arrAt_eq_of_cover 3 (G1 V c) (fun t _ => flushed1_eq V c t) (cover1)

end Cert.KernelIdeal.Fr

end
-- ==== Proof.Glue.lean ====
/-
  The scalar chain between the global maximum and the two scales.

  From the global maximum M of the magnitudes both programs compute, on rank-0 arrays and with the same operations and
  the same words, the exponent e = min(127, max(-128, ⌊log M / log 2⌋)), and from it the scale
  exp(c · (-e + 6)) and the inverse scale exp(c · (e - 6)), c the single-precision word printed for log 2. The chain
  is stated once, as functions of the rank-0 array holding M, and as functions of the number M itself; nothing of it is
  ever evaluated, since both programs apply it to the same M.
-/
import Idealize.ShloMosaic.PureOps.Ideal
import Idealize.ShloMosaic.Lib.ValueIdx
import Idealize.ShloMosaic.Lib.Pipeline.Value

noncomputable section

namespace Cert.Quant

open Idealize.ShloMosaic Idealize.ShloMosaic.ValueIdx

/-- The rank-0 shape. -/
abbrev S0 : Shape := ⟨0, ![]⟩

/-- A rank-0 array broadcasts to a rank-0 array. -/
theorem bcast_S0 : S0.BroadcastsInDim S0 (![] : Fin 0 → Fin S0.rank) := by decide

/-- The clipped exponent min(127, max(-128, ⌊log M / log 2⌋)), on rank-0 arrays. -/
def glueExpV (M : FVec Ideal S0 .f32) : FVec Ideal S0 .f32 :=
  minimumf (id (constant (F := Ideal) S0 .f32 0x42FE0000#32))
    (maximumf (id (constant (F := Ideal) S0 .f32 0xC3000000#32))
      (Host.floor (Host.divf (Host.log M) (Host.log (constant (F := Ideal) S0 .f32 0x40000000#32)))))

/-- The scale exp(c · (-e + 6)), on rank-0 arrays. -/
def glueMulV (M : FVec Ideal S0 .f32) : FVec Ideal S0 .f32 :=
  Host.exp (mulf (broadcastInDim S0 ![] bcast_S0 (constant (F := Ideal) S0 .f32 0x3F317218#32))
    (addf (Host.negf (glueExpV M)) (constant (F := Ideal) S0 .f32 0x40C00000#32)))

/-- The inverse scale exp(c · (e - 6)), on rank-0 arrays. -/
def glueDemulV (M : FVec Ideal S0 .f32) : FVec Ideal S0 .f32 :=
  Host.exp (mulf (broadcastInDim S0 ![] bcast_S0 (constant (F := Ideal) S0 .f32 0x3F317218#32))
    (subf (glueExpV M) (constant (F := Ideal) S0 .f32 0x40C00000#32)))

/-- The scale as a function of the number M. -/
def glueMul (M : Ideal .f32) : Ideal .f32 := glueMulV (fun _ => M) ix0

/-- The inverse scale as a function of the number M. -/
def glueDemul (M : Ideal .f32) : Ideal .f32 := glueDemulV (fun _ => M) ix0

/-- A rank-0 array is constant at its one entry. -/
theorem rank0_eq_const (V : FVec Ideal S0 .f32) : V = fun _ => V ix0 :=
  funext fun k => congrArg V (eq_ix0 k)

/-- The scale of a rank-0 array, at its one index, is the scale of its entry. -/
theorem glueMulV_apply (V : FVec Ideal S0 .f32) (j : S0.Idx) : glueMulV V j = glueMul (V ix0) := by
  rw [eq_ix0 j]
  exact congrArg (fun W => glueMulV W ix0) (rank0_eq_const V)

/-- The inverse scale of a rank-0 array, at its one index, is the inverse scale of its entry. -/
theorem glueDemulV_apply (V : FVec Ideal S0 .f32) (j : S0.Idx) : glueDemulV V j = glueDemul (V ix0) := by
  rw [eq_ix0 j]
  exact congrArg (fun W => glueDemulV W ix0) (rank0_eq_const V)

/-- Every index of a one-entry matrix is (0, 0). -/
theorem idx11_eq (j : (⟨2, ![1, 1]⟩ : Shape).Idx) : j = ix2 (0 : Fin 1) (0 : Fin 1) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

/-- A one-entry matrix viewed as a rank-0 array reads its entry (0, 0). -/
theorem shapeCast_11_0_apply {α : Type} (R : (⟨2, ![1, 1]⟩ : Shape).Idx → α) (h : (⟨2, ![1, 1]⟩ : Shape).ShapeCasts S0)
    (j : S0.Idx) : shapeCast S0 R h j = R (ix2 (0 : Fin 1) (0 : Fin 1)) := by
  unfold shapeCast
  exact congrArg R (idx11_eq _)

/-- A rank-0 array viewed as a one-entry matrix reads its one entry. -/
theorem shapeCast_0_11_apply {α : Type} (V : S0.Idx → α) (h : S0.ShapeCasts ⟨2, ![1, 1]⟩)
    (j : (⟨2, ![1, 1]⟩ : Shape).Idx) : shapeCast ⟨2, ![1, 1]⟩ V h j = V ix0 := by
  unfold shapeCast
  exact congrArg V (eq_ix0 _)

/-- The kernel's first scale operand: the one-entry matrix holding M is viewed as a rank-0 array, the chain is applied,
    and the result is viewed as a one-entry matrix; at its index it is the scale of M. -/
theorem glueMul_of_11 (R : FVec Ideal ⟨2, ![1, 1]⟩ .f32) (h1 : (⟨2, ![1, 1]⟩ : Shape).ShapeCasts S0)
    (h2 : S0.ShapeCasts ⟨2, ![1, 1]⟩) (j : (⟨2, ![1, 1]⟩ : Shape).Idx) :
    shapeCast ⟨2, ![1, 1]⟩ (glueMulV (shapeCast S0 R h1)) h2 j = glueMul (R (ix2 (0 : Fin 1) (0 : Fin 1))) := by
  rw [shapeCast_0_11_apply, glueMulV_apply, shapeCast_11_0_apply]

/-- The kernel's second scale operand, likewise: at its index it is the inverse scale of M. -/
theorem glueDemul_of_11 (R : FVec Ideal ⟨2, ![1, 1]⟩ .f32) (h1 : (⟨2, ![1, 1]⟩ : Shape).ShapeCasts S0)
    (h2 : S0.ShapeCasts ⟨2, ![1, 1]⟩) (j : (⟨2, ![1, 1]⟩ : Shape).Idx) :
    shapeCast ⟨2, ![1, 1]⟩ (glueDemulV (shapeCast S0 R h1)) h2 j = glueDemul (R (ix2 (0 : Fin 1) (0 : Fin 1))) := by
  rw [shapeCast_0_11_apply, glueDemulV_apply, shapeCast_11_0_apply]

end Cert.Quant

end
-- ==== Proof.Rows.lean ====
/-
  The argument array read by rows and by blocks of rows, and a running maximum.

  The kernel views the [16, 2048, 4096] argument as [32768, 4096] rows (the same entries in row-major order), walks the
  rows in blocks (64 blocks of 512 rows in its first call), and views its [32768, 4096] result back as
  [16, 2048, 4096]. Three facts carry a statement across these views: a property of every entry of the array is a
  property of every entry (r, c) of its row view; a property of every entry of the row view is a property of every entry
  (p, q) of every block t, the row being t · 512 + p; and a row-view array that is, entry by entry, a function of the
  argument's row view becomes, viewed back, the same function of the argument's entries.
  Last, a maximum accumulated block after block lies below z exactly when every block's value so far does.
-/
import Idealize.ShloMosaic.Lib.ValueIdx
import Idealize.ShloMosaic.Lib.Pipeline.Value

noncomputable section

namespace Cert.Quant

open Idealize.ShloMosaic Idealize.ShloMosaic.ValueIdx

/-- A property of every entry of the array is a property of every entry (r, c) of its row view. -/
theorem forall_idx3_iff_rows {α : Type} (x : (⟨3, ![16, 2048, 4096]⟩ : Shape).Idx → α)
    (h : (⟨3, ![16, 2048, 4096]⟩ : Shape).ShapeCasts ⟨2, ![32768, 4096]⟩) (P : α → Prop) :
    (∀ i, P (x i)) ↔ ∀ (r : Fin 32768) (c : Fin 4096), P (shapeCast ⟨2, ![32768, 4096]⟩ x h (ix2 r c)) := by
  constructor
  · intro H r c
    exact H _
  · intro H i
    have e : shapeCast ⟨2, ![32768, 4096]⟩ x h ((Shape.reshapeEquiv h).symm i) = x i := by
      unfold shapeCast
      rw [Equiv.apply_symm_apply]
    rw [← e, eq_ix2 ((Shape.reshapeEquiv h).symm i)]
    exact H _ _

/-- A property of every entry of the row view is a property of every entry (p, q) of every block t of 512 rows: the
    row is t · 512 + p. -/
theorem forall_rows_iff_blocks {α : Type} (y : (⟨2, ![32768, 4096]⟩ : Shape).Idx → α) (P : α → Prop) :
    (∀ (r : Fin 32768) (c : Fin 4096), P (y (ix2 r c)))
      ↔ ∀ (t : Fin 64) (p : Fin 512) (q : Fin 4096), P (y (ix2 (⟨t.val * 512 + p.val, by omega⟩ : Fin 32768) q)) := by
  constructor
  · intro H t p q
    exact H _ _
  · intro H r c
    have hr := r.isLt
    have e : r = (⟨(⟨r.val / 512, by omega⟩ : Fin 64).val * 512 + (⟨r.val % 512, by omega⟩ : Fin 512).val, by
        show r.val / 512 * 512 + r.val % 512 < 32768; omega⟩ : Fin 32768) :=
      Fin.ext (by show r.val = r.val / 512 * 512 + r.val % 512; omega)
    rw [e]
    exact H _ _ _

/-- A row-view array that is, entry by entry, a function of the argument's row view is, viewed back as
    [16, 2048, 4096], the same function of the argument's entries. -/
theorem unrows_pointwise {α β : Type} (g : α → β) (x : (⟨3, ![16, 2048, 4096]⟩ : Shape).Idx → α)
    (h : (⟨3, ![16, 2048, 4096]⟩ : Shape).ShapeCasts ⟨2, ![32768, 4096]⟩)
    (h' : (⟨2, ![32768, 4096]⟩ : Shape).ShapeCasts ⟨3, ![16, 2048, 4096]⟩) :
    shapeCast ⟨3, ![16, 2048, 4096]⟩ (fun j => g (shapeCast ⟨2, ![32768, 4096]⟩ x h j)) h' = fun i => g (x i) := by
  funext i
  show g (shapeCast ⟨3, ![16, 2048, 4096]⟩ (shapeCast ⟨2, ![32768, 4096]⟩ x h) h' i) = g (x i)
  rw [shapeCast_shapeCast]

/-- The same with the row-view array given by its entries (r, c). -/
theorem unrows_pointwise_of_entries {α β : Type} (g : α → β) (x : (⟨3, ![16, 2048, 4096]⟩ : Shape).Idx → α)
    (h : (⟨3, ![16, 2048, 4096]⟩ : Shape).ShapeCasts ⟨2, ![32768, 4096]⟩)
    (h' : (⟨2, ![32768, 4096]⟩ : Shape).ShapeCasts ⟨3, ![16, 2048, 4096]⟩) (Y : (⟨2, ![32768, 4096]⟩ : Shape).Idx → β)
    (hY : ∀ (r : Fin 32768) (c : Fin 4096), Y (ix2 r c) = g (shapeCast ⟨2, ![32768, 4096]⟩ x h (ix2 r c))) :
    shapeCast ⟨3, ![16, 2048, 4096]⟩ Y h' = fun i => g (x i) := by
  have hY' : Y = fun j => g (shapeCast ⟨2, ![32768, 4096]⟩ x h j) := funext fun j => by
    rw [eq_ix2 j]; exact hY _ _
  rw [hY']
  exact unrows_pointwise g x h h'

/-- A maximum accumulated term after term lies below z exactly when every term so far does. -/
theorem running_max_le_iff (B A : ℕ → EReal) (h0 : A 0 = B 0) (hs : ∀ n, A (n + 1) = max (A n) (B (n + 1)))
    (z : EReal) (n : ℕ) : A n ≤ z ↔ ∀ k ≤ n, B k ≤ z := by
  induction n with
  | zero =>
    rw [h0]
    constructor
    · intro H k hk
      obtain rfl : k = 0 := by omega
      exact H
    · intro H
      exact H 0 (Nat.le_refl 0)
  | succ n ih =>
    rw [hs, max_le_iff, ih]
    constructor
    · rintro ⟨H1, H2⟩ k hk
      rcases Nat.lt_or_ge k (n + 1) with hlt | hge
      · exact H1 k (by omega)
      · obtain rfl : k = n + 1 := by omega
        exact H2
    · intro H
      exact ⟨fun k hk => H k (by omega), H (n + 1) (Nat.le_refl _)⟩

end Cert.Quant

end
-- ==== Proof.RefValue.lean ====
/-
  The reference's result as a function of its argument array, on the extended reals.

  The reference pushes every entry away from zero, takes the maximum M of the magnitudes over the whole array (a fold of
  max from -∞, so M lies below z exactly when every magnitude does), turns M into the scale and the inverse scale by the
  scalar chain, and quantizes every entry with them: its result at an index is the quantizer's scalar formula at the
  entry there, with the scale and inverse scale of M.
-/
import proofs.«137072_j45449343926973_2_alg».proof.Proof.Gen.ReferenceIdeal.Run
import proofs.«137072_j45449343926973_2_alg».proof.Proof.Gen.ReferenceIdeal.Read
import proofs.«137072_j45449343926973_2_alg».proof.Proof.Spec
import proofs.«137072_j45449343926973_2_alg».proof.Proof.Glue
import Idealize.ShloMosaic.PureOps.Ideal.Laws
import Idealize.ShloMosaic.PureOps.Reduce

noncomputable section

namespace Cert.Quant.Ref

open Idealize.ShloMosaic Idealize.ShloMosaic.ValueIdx Cert.ReferenceIdeal Cert.ReferenceIdeal.Gen Cert.Quant

/-- The reference's global maximum of the magnitudes: its whole-array max-reduce, at the one index of its rank-0 result. -/
def gmaxRef (x : FVec Ideal S16x2048x4096 .f32) : Ideal .f32 := Read.val_main_v8 (F := Ideal) x ix0

/-- The array the reference reduces holds, at each index, the magnitude of the entry there. -/
theorem val_main_v7_apply_mag (x : FVec Ideal S16x2048x4096 .f32) (i : S16x2048x4096.Idx) :
    Read.val_main_v7 (F := Ideal) x i = mag (x i) := rfl

/-- The global maximum lies below z exactly when every entry's magnitude does. -/
theorem gmaxRef_le_iff (x : FVec Ideal S16x2048x4096 .f32) (z : EReal) :
    gmaxRef x ≤ z ↔ ∀ i : S16x2048x4096.Idx, mag (x i) ≤ z := by
  unfold gmaxRef Read.val_main_v8
  rw [Host.reduce_eq_fold]
  rw [Finset.filter_true_of_mem (fun i _ => funext fun a => a.elim0)]
  show (Finset.univ : Finset S16x2048x4096.Idx).fold max (Ideal.ofBits .f32 0xFF800000#32)
    (fun i => mag (x i)) ≤ z ↔ _
  simp only [Finset.fold_max_le, ofBits_neg_inf, bot_le, true_and, Finset.mem_univ, forall_true_left]

/-- A number that lies below z exactly when every entry's magnitude does is the global maximum. -/
theorem eq_gmaxRef_of_le_iff (x : FVec Ideal S16x2048x4096 .f32) (M : EReal)
    (h : ∀ z : EReal, M ≤ z ↔ ∀ i : S16x2048x4096.Idx, mag (x i) ≤ z) : M = gmaxRef x :=
  eq_of_forall_ge_iff fun z => (h z).trans (gmaxRef_le_iff x z).symm

/-- The reference's scale array is the scalar chain applied to its max-reduce. -/
theorem val_main_v18_eq (x : FVec Ideal S16x2048x4096 .f32) :
    Read.val_main_v18 (F := Ideal) x = glueMulV (Read.val_main_v8 (F := Ideal) x) := rfl

/-- The reference's inverse-scale array is the scalar chain applied to its max-reduce. -/
theorem val_main_v26_eq (x : FVec Ideal S16x2048x4096 .f32) :
    Read.val_main_v26 (F := Ideal) x = glueDemulV (Read.val_main_v8 (F := Ideal) x) := rfl

/-- The reference's result at an index: the quantizer's formula at the entry there, with the scale and inverse scale of
    the global maximum. -/
theorem ref_apply (x : FVec Ideal S16x2048x4096 .f32) (i : S16x2048x4096.Idx) :
    Read.val_main_v28 (F := Ideal) x i = quant (glueMul (gmaxRef x)) (glueDemul (gmaxRef x)) (x i) := by
  have e19 : Read.val_main_v19 (F := Ideal) x i = glueMul (gmaxRef x) := by
    rw [Read.val_main_v19_apply, val_main_v18_eq, glueMulV_apply]; rfl
  have e27 : Read.val_main_v27 (F := Ideal) x i = glueDemul (gmaxRef x) := by
    rw [Read.val_main_v27_apply, val_main_v26_eq, glueDemulV_apply]; rfl
  show (min (Read.val_main_call3_v4 (F := Ideal) i) (max (Read.val_main_call3_v1 (F := Ideal) i)
      (Ideal.liftRound Ideal.roundHalfEven (Read.val_main_v6 (F := Ideal) x i * Read.val_main_v19 (F := Ideal) x i))))
      * Read.val_main_v27 (F := Ideal) x i = _
  rw [e19, e27]
  rfl

/-- The reference's result as an array. -/
theorem ref_eq (x : FVec Ideal S16x2048x4096 .f32) :
    Read.val_main_v28 (F := Ideal) x = fun i => quant (glueMul (gmaxRef x)) (glueDemul (gmaxRef x)) (x i) :=
  funext fun i => ref_apply x i

end Cert.Quant.Ref

end
-- ==== Proof.KI.Final.lean ====
/-
  The idealized kernel's result as one function of its argument, and the claim. Reading the boundary contents through
  @main: the first reshape makes the [32768, 4096] array; the first region leaves in its 1×1 array the running maximum
  `Mk`, which is the least upper bound of the magnitudes of all entries, hence the reference's global maximum; the
  scalar host chain is the same on both sides and is carried as one function of that maximum; the second region's array
  is the scalar quantizer of each entry at the two scales; the last reshape returns to [16, 2048, 4096]. Index by index
  both programs compute `quant (glueMul M) (glueDemul M) (x i)` with the same `M`.
-/
import proofs.«137072_j45449343926973_2_alg».proof.Defs
import proofs.«137072_j45449343926973_2_alg».proof.Proof.Gen.Pre_finite_inputs
import proofs.«137072_j45449343926973_2_alg».proof.Proof.Gen.ReferenceIdeal
import proofs.«137072_j45449343926973_2_alg».proof.Proof.KI.Run
import proofs.«137072_j45449343926973_2_alg».proof.Proof.K.Run
import proofs.«137072_j45449343926973_2_alg».proof.Proof.KI.Value0
import proofs.«137072_j45449343926973_2_alg».proof.Proof.KI.Value1
import proofs.«137072_j45449343926973_2_alg».proof.Proof.Glue
import proofs.«137072_j45449343926973_2_alg».proof.Proof.Rows
import proofs.«137072_j45449343926973_2_alg».proof.Proof.RefValue
import Idealize.ShloMosaic.Lib.StableHlo.Run

set_option maxRecDepth 16384

noncomputable section

namespace Cert.KernelIdeal.Fr

open Cert.KernelIdeal Cert.KernelIdeal.Gen Cert.Quant
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The argument array on core `c`. -/
abbrev xArg (c : Dev nD) : S16x2048x4096.Idx → Elt Ideal .f32 := m ((c : Thread nD τ).loc main_arg0)

/-- The first region's input: the argument reshaped to rows. -/
theorem U1_v0 (c : Dev nD) : (U1 m ρ c main_v0 : S32768x4096.Idx → Elt Ideal .f32)
    = shapeCast S32768x4096 (xArg m c) shapeCasts_S16x2048x4096_S32768x4096 := by
  show StableHlo.after hostOps0 (W0 m ρ c) (Proc.devRef .tc main_v0) = _
  after_results; rfl

/-- The running maximum the first region leaves. -/
def Mk (c : Dev nD) : Elt Ideal .f32 := (dat0 (U1 m ρ) c).arrAt 1 cfg0.N (ix2 (0 : Fin 1) (0 : Fin 1))

/-- Nothing between the two regions writes the rows array, and the first region only reads it. -/
theorem U5_v0 (c : Dev nD) : U5 m ρ c main_v0 = U1 m ρ c main_v0 :=
  calc W5 m ρ c (Proc.devRef .tc main_v0)
    _ = W4 m ρ c (Proc.devRef .tc main_v0) := StableHlo.after_of_writes_sub hostOps1_2 _ hostOps1_2_writes (r := main_v0) (by decide)
    _ = W3 m ρ c (Proc.devRef .tc main_v0) := StableHlo.after_of_writes_sub hostOps1_1 _ hostOps1_1_writes (r := main_v0) (by decide)
    _ = W2 m ρ c (Proc.devRef .tc main_v0) := StableHlo.after_of_writes_sub hostOps1 _ hostOps1_writes (r := main_v0) (by decide)
    _ = W1 m ρ c (Proc.devRef .tc main_v0) := (W2_arr m ρ c 0).trans (((dat0 (U1 m ρ) c).arrAt_in 0 rfl _).trans (A_eq0 (U1 m ρ) c 0))

/-- The two scales as the second region finds them: the shared scalar chain of the first region's 1×1 result. -/
theorem U5_v13 (c : Dev nD) : (U5 m ρ c main_v13 : S1x1.Idx → Elt Ideal .f32)
    = shapeCast S1x1 (glueMulV (shapeCast S_ (W2 m ρ c (Proc.devRef .tc main_v1) : S1x1.Idx → Elt Ideal .f32) shapeCasts_S1x1_S_)) shapeCasts_S_S1x1 := by
  show StableHlo.after hostOps1_2 (StableHlo.after hostOps1_1 (StableHlo.after hostOps1 (W2 m ρ c))) (Proc.devRef .tc main_v13) = _
  after_results; rfl
theorem U5_v18 (c : Dev nD) : (U5 m ρ c main_v18 : S1x1.Idx → Elt Ideal .f32)
    = shapeCast S1x1 (glueDemulV (shapeCast S_ (W2 m ρ c (Proc.devRef .tc main_v1) : S1x1.Idx → Elt Ideal .f32) shapeCasts_S1x1_S_)) shapeCasts_S_S1x1 := by
  show StableHlo.after hostOps1_2 (StableHlo.after hostOps1_1 (StableHlo.after hostOps1 (W2 m ρ c))) (Proc.devRef .tc main_v18) = _
  after_results; rfl

theorem scale_mul (c : Dev nD) : (U5 m ρ c main_v13 : S1x1.Idx → Elt Ideal .f32) (ix2 (0 : Fin 1) (0 : Fin 1)) = glueMul (Mk m ρ c) :=
  (congrFun (U5_v13 m ρ c) _).trans ((glueMul_of_11 _ _ _ _).trans (congrArg glueMul (congrFun (W2_arr m ρ c 1) _)))
theorem scale_demul (c : Dev nD) : (U5 m ρ c main_v18 : S1x1.Idx → Elt Ideal .f32) (ix2 (0 : Fin 1) (0 : Fin 1)) = glueDemul (Mk m ρ c) :=
  (congrFun (U5_v18 m ρ c) _).trans ((glueDemul_of_11 _ _ _ _).trans (congrArg glueDemul (congrFun (W2_arr m ρ c 1) _)))

/-- The result is the last reshape of the second region's array. -/
theorem W7_v20 (c : Dev nD) : (W7 m ρ c (Proc.devRef .tc main_v20) : S16x2048x4096.Idx → Elt Ideal .f32)
    = shapeCast S16x2048x4096 (W6 m ρ c (Proc.devRef .tc main_v19) : S32768x4096.Idx → Elt Ideal .f32) shapeCasts_S32768x4096_S16x2048x4096 := by
  show StableHlo.after hostOps2 (W6 m ρ c) (Proc.devRef .tc main_v20) = _
  after_results; rfl

/-- THE KERNEL'S RESULT: entry by entry the scalar quantizer of the argument's entry, at the scales of the running maximum. -/
theorem result_eq (c : Dev nD) : (W7 m ρ c (Proc.devRef .tc main_v20) : S16x2048x4096.Idx → Elt Ideal .f32)
    = fun i => quant (glueMul (Mk m ρ c)) (glueDemul (Mk m ρ c)) (xArg m c i) := by
  refine (W7_v20 m ρ c).trans ?_
  refine unrows_pointwise_of_entries (quant (glueMul (Mk m ρ c)) (glueDemul (Mk m ρ c))) (xArg m c)
    shapeCasts_S16x2048x4096_S32768x4096 shapeCasts_S32768x4096_S16x2048x4096 _ (fun r q => ?_)
  have e : (W6 m ρ c (Proc.devRef .tc main_v19) : S32768x4096.Idx → Elt Ideal .f32) = G1 (U5 m ρ) c :=
    (W6_arr m ρ c 3).trans (final1 (U5 m ρ) c)
  rw [e]
  show quant ((U5 m ρ c main_v13 : S1x1.Idx → Elt Ideal .f32) (ix2 (0 : Fin 1) (0 : Fin 1)))
      ((U5 m ρ c main_v18 : S1x1.Idx → Elt Ideal .f32) (ix2 (0 : Fin 1) (0 : Fin 1))) (U5 m ρ c main_v0 (ix2 r q)) = _
  rw [scale_mul, scale_demul, U5_v0, U1_v0]

/-- THE RUNNING MAXIMUM IS THE GLOBAL MAXIMUM: both are the least upper bound of the magnitudes of all entries — the
    64 row-blocks exhaust the rows, the rows exhaust the array. -/
theorem Mk_eq (c : Dev nD) : Mk m ρ c = Ref.gmaxRef (xArg m c) := by
  refine Ref.eq_gmaxRef_of_le_iff _ _ fun z => ?_
  refine (final0_le_iff (U1 m ρ) c z).trans ?_
  rw [U1_v0]
  exact ((forall_rows_iff_blocks _ (fun v => mag v ≤ z)).symm).trans
    (forall_idx3_iff_rows (xArg m c) shapeCasts_S16x2048x4096_S32768x4096 (fun v => mag v ≤ z)).symm

end Cert.KernelIdeal.Fr

end
-- ==== Proof.lean ====
/-
  The claim: both kernels' frames, the reference's frame, the (empty) idealization ledger, and the equality of results
  over the extended reals.

  The kernel is a two-pass block quantizer: a first kernel region folds the maximum magnitude of the input over 64
  row-blocks into a 1×1 array (the first point stores its block's maximum, each later point the maximum of the carried
  value and its block's); a scalar host chain turns that maximum into two scales; a second kernel region quantizes each
  of 128 row-blocks pointwise. The reference takes one global maximum and quantizes the whole array pointwise.
  At the ideal instance both results are, entry by entry, `quant (glueMul M) (glueDemul M) (x i)`: the pointwise
  operations and every literal are the same on both sides, and the running maximum of the block maxima is the global
  maximum because both are the least upper bound of the same set of magnitudes — a lattice fact that holds on all of the
  extended reals, so the finiteness precondition is never opened.
-/
import proofs.«137072_j45449343926973_2_alg».proof.Defs
import proofs.«137072_j45449343926973_2_alg».proof.Proof.Gen.Kernel
import proofs.«137072_j45449343926973_2_alg».proof.Proof.Gen.KernelIdeal
import proofs.«137072_j45449343926973_2_alg».proof.Proof.Gen.ReferenceIdeal
import proofs.«137072_j45449343926973_2_alg».proof.Proof.Gen.Pre_finite_inputs
import proofs.«137072_j45449343926973_2_alg».proof.Proof.Gen.ReferenceIdeal.Run
import proofs.«137072_j45449343926973_2_alg».proof.Proof.Gen.ReferenceIdeal.Read
import proofs.«137072_j45449343926973_2_alg».proof.Proof.K.Run
import proofs.«137072_j45449343926973_2_alg».proof.Proof.KI.Final
import Idealize.ShloMosaic.Adequacy
import Idealize.ShloMosaic.Init

noncomputable section

namespace Cert.Proof

open Idealize.ShloMosaic Idealize.ShloMosaic.TcCoe Idealize.SL.Sem
open Cert.Quant Cert.KernelIdeal.Fr

/-- The word-level kernel runs, and its argument array ends as launched. -/
theorem frame_k : Cert.frame_Kernel := fun m ρ _ => Cert.Kernel.Fr.frame m ρ

/-- The idealized kernel runs, and its argument array ends as launched. -/
theorem frame_ki : Cert.frame_KernelIdeal := fun m ρ _ => Cert.KernelIdeal.Fr.frame m ρ

/-- The reference is a straight-line host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the same array: the scalar quantizer of each entry at the scales of the one maximum. -/
theorem algebraic : Cert.algebraic_KernelIdeal_ReferenceIdeal := by
  intro m ρ m' ρ' _ hagree
  refine ⟨fun c => fun i => quant (glueMul (Mk m ρ c)) (glueDemul (Mk m ρ c)) (xArg m c i), ?_, ?_⟩
  · exact (θ_run Cert.KernelIdeal.defs _ _).mono (fun r h c => ⟨(h c).1.trans (result_eq m ρ c), (h c).2⟩) (run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v28_eq, Cert.Quant.Ref.ref_eq, hagree c]
    beta_reduce
    rw [Mk_eq m ρ c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
